-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x6400000 : Shape := ⟨2, ![2, 6400000]⟩
abbrev S128x16 : Shape := ⟨2, ![128, 16]⟩
abbrev S16 : Shape := ⟨1, ![16]⟩
abbrev S16x3 : Shape := ⟨2, ![16, 3]⟩
abbrev S3 : Shape := ⟨1, ![3]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x3 : S_.BroadcastsInDim S16x3 (![] : Fin 0 → Fin S16x3.rank)
  reducesTo_S16x3_S_d0_1 : S16x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg5 : FVec F S3 .f32) (main_v13 : IVec S_ 1) (main_v16 : IVec S16x3 1) : IVec S_ 1 :=
  let main_c_5 : IVec S_ 1 := constantI S_ 1 1#1
  let main_v17 : IVec S_ 1 := (fun x v => Host.reduce IntOp.andi x v reducesTo_S16x3_S_d0_1 h_S_) main_v16 main_c_5
  let main_v18 : IVec S_ 1 := andi main_v13 main_v17
  let main_v19 : FVec F S3 .f32 := Host.absf main_arg5
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S100000x128 .f32) (main_arg1 : IVec S2x6400000 32) (main_arg2 : FVec F S128x16 .f32) (main_arg3 : FVec F S16 .f32) (main_arg4 : FVec F S16x3 .f32) (main_arg5 : FVec F S3 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x3 .f32 := Host.absf main_arg4
  let main_cst_4 : FVec F S_ .f32 := constant S_ .f32 0x7F800000#32
  let main_v15 : FVec F S16x3 .f32 := broadcastInDim S16x3 ![] bcast_S_S16x3 main_cst_4
  let main_v16 : IVec S16x3 1 := cmpf .olt main_v14 main_v15
  fn_part1 (F := F) main_arg5 main_v13 main_v16
-- ==== Kernel.lean ====
abbrev S100000x128 : Shape := ⟨2, ![100000, 128]⟩
abbrev S2x6400000 : Shape := ⟨2, ![2, 6400000]⟩
abbrev S128x16 : Shape := ⟨2, ![128, 16]⟩
abbrev S16 : Shape := ⟨1, ![16]⟩
abbrev S16x3 : Shape := ⟨2, ![16, 3]⟩
abbrev S3 : Shape := ⟨1, ![3]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x16 : Shape := ⟨2, ![100000, 16]⟩
abbrev S10000x128 : Shape := ⟨2, ![10000, 128]⟩
abbrev S10000x16 : Shape := ⟨2, ![10000, 16]⟩
abbrev S6500000x16 : Shape := ⟨2, ![6500000, 16]⟩
abbrev S1x16 : Shape := ⟨2, ![1, 16]⟩
abbrev S100000x3 : Shape := ⟨2, ![100000, 3]⟩
abbrev S10000x3 : Shape := ⟨2, ![10000, 3]⟩
abbrev S6500000x3 : Shape := ⟨2, ![6500000, 3]⟩
abbrev S1x3 : Shape := ⟨2, ![1, 3]⟩

abbrev nBuf : Space → Nat
  | .hbm => 89
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x6400000, .i32⟩
  | .hbm, ⟨2, _⟩ => ⟨S128x16, .f32⟩
  | .hbm, ⟨3, _⟩ => ⟨S16, .f32⟩
  | .hbm, ⟨4, _⟩ => ⟨S16x3, .f32⟩
  | .hbm, ⟨5, _⟩ => ⟨S3, .f32⟩
  | .hbm, ⟨6, _⟩ => ⟨S100000, .i32⟩
  | .hbm, ⟨7, _⟩ => ⟨S1x6400000, .i32⟩
  | .hbm, ⟨8, _⟩ => ⟨S6400000, .i32⟩
  | .hbm, ⟨9, _⟩ => ⟨S6500000, .i32⟩
  | .hbm, ⟨10, _⟩ => ⟨S1x6400000, .i32⟩
  | .hbm, ⟨11, _⟩ => ⟨S6400000, .i32⟩
  | .hbm, ⟨12, _⟩ => ⟨S6500000, .i32⟩
  | .hbm, ⟨13, _⟩ => ⟨S_, .f32⟩
  | .hbm, ⟨14, _⟩ => ⟨S6500000, .f32⟩
  | .hbm, ⟨15, _⟩ => ⟨S_, .f32⟩
  | .hbm, ⟨16, _⟩ => ⟨S100000, .f32⟩
  | .hbm, ⟨17, _⟩ => ⟨S6500000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S6500000, .i32⟩
  | .hbm, ⟨29, _⟩ => ⟨S6500000, .i1⟩
  | .hbm, ⟨30, _⟩ => ⟨S_, .i32⟩
  | .hbm, ⟨31, _⟩ => ⟨S6500000, .i32⟩
  | .hbm, ⟨32, _⟩ => ⟨S6500000, .i32⟩
  | .hbm, ⟨33, _⟩ => ⟨S6500000, .i32⟩
  | .hbm, ⟨34, _⟩ => ⟨S6500000x1, .i32⟩
  | .hbm, ⟨35, _⟩ => ⟨S6500000, .f32⟩
  | .hbm, ⟨36, _⟩ => ⟨S_, .i32⟩
  | .hbm, ⟨37, _⟩ => ⟨S6500000, .i32⟩
  | .hbm, ⟨38, _⟩ => ⟨S6500000, .i1⟩
  | .hbm, ⟨39, _⟩ => ⟨S_, .i32⟩
  | .hbm, ⟨40, _⟩ => ⟨S6500000, .i32⟩
  | .hbm, ⟨41, _⟩ => ⟨S6500000, .i32⟩
  | .hbm, ⟨42, _⟩ => ⟨S6500000, .i32⟩
  | .hbm, ⟨43, _⟩ => ⟨S6500000x1, .i32⟩
  | .hbm, ⟨44, _⟩ => ⟨S6500000, .f32⟩
  | .hbm, ⟨45, _⟩ => ⟨S6500000, .f32⟩
  | .hbm, ⟨46, _⟩ => ⟨S100000x16, .f32⟩
  | .hbm, ⟨47, _⟩ => ⟨S_, .i32⟩
  | .hbm, ⟨48, _⟩ => ⟨S6500000, .i32⟩
  | .hbm, ⟨49, _⟩ => ⟨S6500000, .i1⟩
  | .hbm, ⟨50, _⟩ => ⟨S_, .i32⟩
  | .hbm, ⟨51, _⟩ => ⟨S6500000, .i32⟩
  | .hbm, ⟨52, _⟩ => ⟨S6500000, .i32⟩
  | .hbm, ⟨53, _⟩ => ⟨S6500000, .i32⟩
  | .hbm, ⟨54, _⟩ => ⟨S6500000x1, .i32⟩
  | .hbm, ⟨55, _⟩ => ⟨S6500000x16, .f32⟩
  | .hbm, ⟨56, _⟩ => ⟨S6500000x1, .f32⟩
  | .hbm, ⟨57, _⟩ => ⟨S6500000x16, .f32⟩
  | .hbm, ⟨58, _⟩ => ⟨S6500000x16, .f32⟩
  | .hbm, ⟨59, _⟩ => ⟨S_, .f32⟩
  | .hbm, ⟨60, _⟩ => ⟨S100000x16, .f32⟩
  | .hbm, ⟨61, _⟩ => ⟨S6500000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x3, .f32⟩
  | .hbm, ⟨70, _⟩ => ⟨S_, .i32⟩
  | .hbm, ⟨71, _⟩ => ⟨S6500000, .i32⟩
  | .hbm, ⟨72, _⟩ => ⟨S6500000, .i1⟩
  | .hbm, ⟨73, _⟩ => ⟨S_, .i32⟩
  | .hbm, ⟨74, _⟩ => ⟨S6500000, .i32⟩
  | .hbm, ⟨75, _⟩ => ⟨S6500000, .i32⟩
  | .hbm, ⟨76, _⟩ => ⟨S6500000, .i32⟩
  | .hbm, ⟨77, _⟩ => ⟨S6500000x1, .i32⟩
  | .hbm, ⟨78, _⟩ => ⟨S6500000x3, .f32⟩
  | .hbm, ⟨79, _⟩ => ⟨S6500000x1, .f32⟩
  | .hbm, ⟨80, _⟩ => ⟨S6500000x3, .f32⟩
  | .hbm, ⟨81, _⟩ => ⟨S6500000x3, .f32⟩
  | .hbm, ⟨82, _⟩ => ⟨S_, .f32⟩
  | .hbm, ⟨83, _⟩ => ⟨S100000x3, .f32⟩
  | .hbm, ⟨84, _⟩ => ⟨S6500000x1, .i32⟩
  | .hbm, ⟨85, _⟩ => ⟨S100000x3, .f32⟩
  | .hbm, ⟨86, _⟩ => ⟨S1x3, .f32⟩
  | .hbm, ⟨87, _⟩ => ⟨S100000x3, .f32⟩
  | .hbm, ⟨88, _⟩ => ⟨S100000x3, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S16x3, .f32⟩
  | .local _ .vmem, ⟨8, _⟩ => ⟨S10000x3, .f32⟩
  | .local _ .vmem, ⟨9, _⟩ => ⟨S10000x3, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S6500000x1_S6500000x16_0_1 : S6500000x1.BroadcastsInDim S6500000x16 (![0, 1] : Fin 2 → Fin S6500000x16.rank)
  bcast_S_S100000x16 : S_.BroadcastsInDim S100000x16 (![] : Fin 0 → Fin S100000x16.rank)
  shapeCasts_S16_S1x16 : S16.ShapeCasts S1x16
  bcast_S1x16_S100000x16_0_1 : S1x16.BroadcastsInDim S100000x16 (![0, 1] : Fin 2 → Fin S100000x16.rank)
  shapeCasts_S10000x16_S10000x16 : S10000x16.ShapeCasts S10000x16
  inb_S16x3_S16x3_0_0 : ∀ a, (![0, 0] : Fin 2 → Nat) a + S16x3.size a ≤ S16x3.size a
  h_S16x3 : 0 < S16x3.numel
  inb_S10000x3_S10000x3_0_0 : ∀ a, (![0, 0] : Fin 2 → Nat) a + S10000x3.size a ≤ S10000x3.size a
  h_S10000x3 : 0 < S10000x3.numel
  bcast_S6500000x1_S6500000x3_0_1 : S6500000x1.BroadcastsInDim S6500000x3 (![0, 1] : Fin 2 → Fin S6500000x3.rank)
  bcast_S_S100000x3 : S_.BroadcastsInDim S100000x3 (![] : Fin 0 → Fin S100000x3.rank)
  shapeCasts_S3_S1x3 : S3.ShapeCasts S1x3
  bcast_S1x3_S100000x3_0_1 : S1x3.BroadcastsInDim S100000x3 (![0, 1] : Fin 2 → Fin S100000x3.rank)
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S10000x128_S128x16_S10000x16_1_0_0_1_n_n_wf : DotDims.WF S10000x128 S128x16 S10000x16 [1] [0] [0] [1] [] []
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S10000x16_S16x3_S10000x3_1_0_0_1_n_n_wf : DotDims.WF S10000x16 S16x3 S10000x3 [1] [0] [0] [1] [] []
  gather_S100000x3_S6500000x1_S6500000x3_1_0_n_n_0_1_13_wf : GatherDims.WF S100000x3 S6500000x1 S6500000x3 [1] [0] [] [0] [] 1 ![1, 3]
  scatter_S100000x3_S6500000x1_S6500000x3_1_0_0_1_wf : ScatterDims.WF S100000x3 S6500000x1 S6500000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x3.size a ≤ S16x3.size a
  hwx1_1 : ∀ i : grid1.Coords, EltTy.bits .f32 = 32 ∨ (Rect.block (s := S16x3) S16x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x3.size a ≤ S100000x3.size a
  hwx1_2 : ∀ i : grid1.Coords, EltTy.bits .f32 = 32 ∨ (Rect.block (s := S100000x3) S10000x3.size (cc1_transform_2 i) (hinb1_2 i)).WholeWords (EltTy.packing .f32)

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S10000x16_S16x3_S10000x3_1_0_0_1_n_n : DotDims S10000x16 S16x3 S10000x3 where
  lhsContracting := [1]
  rhsContracting := [0]
  lhsNonContracting := [0]
  rhsNonContracting := [1]
  lhsBatch := []
  rhsBatch := []
  wf := dot_S10000x16_S16x3_S10000x3_1_0_0_1_n_n_wf
def gather_S100000x3_S6500000x1_S6500000x3_1_0_n_n_0_1_13 : GatherDims S100000x3 S6500000x1 S6500000x3 where
  offsetDims := [1]
  collapsedSliceDims := [0]
  operandBatchingDims := []
  startIndicesBatchingDims := []
  startIndexMap := [0]
  indexVectorDim := 1
  sliceSizes := ![1, 3]
  wf := gather_S100000x3_S6500000x1_S6500000x3_1_0_n_n_0_1_13_wf
def scatter_S100000x3_S6500000x1_S6500000x3_1_0_0_1 : ScatterDims S100000x3 S6500000x1 S6500000x3 where
  updateWindowDims := [1]
  insertedWindowDims := [0]
  scatterDimsToOperandDims := [0]
  indexVectorDim := 1
  wf := scatter_S100000x3_S6500000x1_S6500000x3_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x3.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x3.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x6400000 : Shape := ⟨2, ![2, 6400000]⟩
abbrev S128x16 : Shape := ⟨2, ![128, 16]⟩
abbrev S16 : Shape := ⟨1, ![16]⟩
abbrev S16x3 : Shape := ⟨2, ![16, 3]⟩
abbrev S3 : Shape := ⟨1, ![3]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S100000x16 : Shape := ⟨2, ![100000, 16]⟩
abbrev S_ : Shape := ⟨0, ![]⟩
abbrev S6500000x1 : Shape := ⟨2, ![6500000, 1]⟩
abbrev S6500000x16 : Shape := ⟨2, ![6500000, 16]⟩
abbrev S1x16 : Shape := ⟨2, ![1, 16]⟩
abbrev S100000x3 : Shape := ⟨2, ![100000, 3]⟩
abbrev S6500000x3 : Shape := ⟨2, ![6500000, 3]⟩
abbrev S1x3 : Shape := ⟨2, ![1, 3]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x6400000, .i32⟩
  | .hbm, ⟨2, _⟩ => ⟨S128x16, .f32⟩
  | .hbm, ⟨3, _⟩ => ⟨S16, .f32⟩
  | .hbm, ⟨4, _⟩ => ⟨S16x3, .f32⟩
  | .hbm, ⟨5, _⟩ => ⟨S3, .f32⟩
  | .hbm, ⟨6, _⟩ => ⟨S100000, .i32⟩
  | .hbm, ⟨7, _⟩ => ⟨S1x6400000, .i32⟩
  | .hbm, ⟨8, _⟩ => ⟨S6400000, .i32⟩
  | .hbm, ⟨9, _⟩ => ⟨S6500000, .i32⟩
  | .hbm, ⟨10, _⟩ => ⟨S1x6400000, .i32⟩
  | .hbm, ⟨11, _⟩ => ⟨S6400000, .i32⟩
  | .hbm, ⟨12, _⟩ => ⟨S6500000, .i32⟩
  | .hbm, ⟨13, _⟩ => ⟨S100000x16, .f32⟩
  | .hbm, ⟨14, _⟩ => ⟨S_, .f32⟩
  | .hbm, ⟨15, _⟩ => ⟨S6500000, .f32⟩
  | .hbm, ⟨16, _⟩ => ⟨S_, .f32⟩
  | .hbm, ⟨17, _⟩ => ⟨S100000, .f32⟩
  | .hbm, ⟨18, _⟩ => ⟨S6500000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S6500000, .i32⟩
  | .hbm, ⟨30, _⟩ => ⟨S6500000, .i1⟩
  | .hbm, ⟨31, _⟩ => ⟨S_, .i32⟩
  | .hbm, ⟨32, _⟩ => ⟨S6500000, .i32⟩
  | .hbm, ⟨33, _⟩ => ⟨S6500000, .i32⟩
  | .hbm, ⟨34, _⟩ => ⟨S6500000, .i32⟩
  | .hbm, ⟨35, _⟩ => ⟨S6500000x1, .i32⟩
  | .hbm, ⟨36, _⟩ => ⟨S6500000, .f32⟩
  | .hbm, ⟨37, _⟩ => ⟨S_, .i32⟩
  | .hbm, ⟨38, _⟩ => ⟨S6500000, .i32⟩
  | .hbm, ⟨39, _⟩ => ⟨S6500000, .i1⟩
  | .hbm, ⟨40, _⟩ => ⟨S_, .i32⟩
  | .hbm, ⟨41, _⟩ => ⟨S6500000, .i32⟩
  | .hbm, ⟨42, _⟩ => ⟨S6500000, .i32⟩
  | .hbm, ⟨43, _⟩ => ⟨S6500000, .i32⟩
  | .hbm, ⟨44, _⟩ => ⟨S6500000x1, .i32⟩
  | .hbm, ⟨45, _⟩ => ⟨S6500000, .f32⟩
  | .hbm, ⟨46, _⟩ => ⟨S6500000, .f32⟩
  | .hbm, ⟨47, _⟩ => ⟨S_, .i32⟩
  | .hbm, ⟨48, _⟩ => ⟨S6500000, .i32⟩
  | .hbm, ⟨49, _⟩ => ⟨S6500000, .i1⟩
  | .hbm, ⟨50, _⟩ => ⟨S_, .i32⟩
  | .hbm, ⟨51, _⟩ => ⟨S6500000, .i32⟩
  | .hbm, ⟨52, _⟩ => ⟨S6500000, .i32⟩
  | .hbm, ⟨53, _⟩ => ⟨S6500000, .i32⟩
  | .hbm, ⟨54, _⟩ => ⟨S6500000x1, .i32⟩
  | .hbm, ⟨55, _⟩ => ⟨S6500000x16, .f32⟩
  | .hbm, ⟨56, _⟩ => ⟨S6500000x1, .f32⟩
  | .hbm, ⟨57, _⟩ => ⟨S6500000x16, .f32⟩
  | .hbm, ⟨58, _⟩ => ⟨S6500000x16, .f32⟩
  | .hbm, ⟨59, _⟩ => ⟨S_, .f32⟩
  | .hbm, ⟨60, _⟩ => ⟨S100000x16, .f32⟩
  | .hbm, ⟨61, _⟩ => ⟨S6500000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x3, .f32⟩
  | .hbm, ⟨70, _⟩ => ⟨S_, .f32⟩
  | .hbm, ⟨71, _⟩ => ⟨S6500000, .f32⟩
  | .hbm, ⟨72, _⟩ => ⟨S_, .f32⟩
  | .hbm, ⟨73, _⟩ => ⟨S100000, .f32⟩
  | .hbm, ⟨74, _⟩ => ⟨S6500000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S6500000, .i32⟩
  | .hbm, ⟨86, _⟩ => ⟨S6500000, .i1⟩
  | .hbm, ⟨87, _⟩ => ⟨S_, .i32⟩
  | .hbm, ⟨88, _⟩ => ⟨S6500000, .i32⟩
  | .hbm, ⟨89, _⟩ => ⟨S6500000, .i32⟩
  | .hbm, ⟨90, _⟩ => ⟨S6500000, .i32⟩
  | .hbm, ⟨91, _⟩ => ⟨S6500000x1, .i32⟩
  | .hbm, ⟨92, _⟩ => ⟨S6500000, .f32⟩
  | .hbm, ⟨93, _⟩ => ⟨S_, .i32⟩
  | .hbm, ⟨94, _⟩ => ⟨S6500000, .i32⟩
  | .hbm, ⟨95, _⟩ => ⟨S6500000, .i1⟩
  | .hbm, ⟨96, _⟩ => ⟨S_, .i32⟩
  | .hbm, ⟨97, _⟩ => ⟨S6500000, .i32⟩
  | .hbm, ⟨98, _⟩ => ⟨S6500000, .i32⟩
  | .hbm, ⟨99, _⟩ => ⟨S6500000, .i32⟩
  | .hbm, ⟨100, _⟩ => ⟨S6500000x1, .i32⟩
  | .hbm, ⟨101, _⟩ => ⟨S6500000, .f32⟩
  | .hbm, ⟨102, _⟩ => ⟨S6500000, .f32⟩
  | .hbm, ⟨103, _⟩ => ⟨S_, .i32⟩
  | .hbm, ⟨104, _⟩ => ⟨S6500000, .i32⟩
  | .hbm, ⟨105, _⟩ => ⟨S6500000, .i1⟩
  | .hbm, ⟨106, _⟩ => ⟨S_, .i32⟩
  | .hbm, ⟨107, _⟩ => ⟨S6500000, .i32⟩
  | .hbm, ⟨108, _⟩ => ⟨S6500000, .i32⟩
  | .hbm, ⟨109, _⟩ => ⟨S6500000, .i32⟩
  | .hbm, ⟨110, _⟩ => ⟨S6500000x1, .i32⟩
  | .hbm, ⟨111, _⟩ => ⟨S6500000x3, .f32⟩
  | .hbm, ⟨112, _⟩ => ⟨S6500000x1, .f32⟩
  | .hbm, ⟨113, _⟩ => ⟨S6500000x3, .f32⟩
  | .hbm, ⟨114, _⟩ => ⟨S6500000x3, .f32⟩
  | .hbm, ⟨115, _⟩ => ⟨S_, .f32⟩
  | .hbm, ⟨116, _⟩ => ⟨S100000x3, .f32⟩
  | .hbm, ⟨117, _⟩ => ⟨S6500000x1, .i32⟩
  | .hbm, ⟨118, _⟩ => ⟨S100000x3, .f32⟩
  | .hbm, ⟨119, _⟩ => ⟨S1x3, .f32⟩
  | .hbm, ⟨120, _⟩ => ⟨S100000x3, .f32⟩
  | .hbm, ⟨121, _⟩ => ⟨S100000x3, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  bcast_S6500000x1_S6500000x16_0_1 : S6500000x1.BroadcastsInDim S6500000x16 (![0, 1] : Fin 2 → Fin S6500000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S6500000x1_S6500000x3_0_1 : S6500000x1.BroadcastsInDim S6500000x3 (![0, 1] : Fin 2 → Fin S6500000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  dot_S100000x128_S128x16_S100000x16_1_0_0_1_n_n_wf : DotDims.WF S100000x128 S128x16 S100000x16 [1] [0] [0] [1] [] []
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S100000x16_S16x3_S100000x3_1_0_0_1_n_n_wf : DotDims.WF S100000x16 S16x3 S100000x3 [1] [0] [0] [1] [] []
  gather_S100000x3_S6500000x1_S6500000x3_1_0_n_n_0_1_13_wf : GatherDims.WF S100000x3 S6500000x1 S6500000x3 [1] [0] [] [0] [] 1 ![1, 3]
  scatter_S100000x3_S6500000x1_S6500000x3_1_0_0_1_wf : ScatterDims.WF S100000x3 S6500000x1 S6500000x3 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S100000x16_S16x3_S100000x3_1_0_0_1_n_n : DotDims S100000x16 S16x3 S100000x3 where
  lhsContracting := [1]
  rhsContracting := [0]
  lhsNonContracting := [0]
  rhsNonContracting := [1]
  lhsBatch := []
  rhsBatch := []
  wf := dot_S100000x16_S16x3_S100000x3_1_0_0_1_n_n_wf
def gather_S100000x3_S6500000x1_S6500000x3_1_0_n_n_0_1_13 : GatherDims S100000x3 S6500000x1 S6500000x3 where
  offsetDims := [1]
  collapsedSliceDims := [0]
  operandBatchingDims := []
  startIndicesBatchingDims := []
  startIndexMap := [0]
  indexVectorDim := 1
  sliceSizes := ![1, 3]
  wf := gather_S100000x3_S6500000x1_S6500000x3_1_0_n_n_0_1_13_wf
def scatter_S100000x3_S6500000x1_S6500000x3_1_0_0_1 : ScatterDims S100000x3 S6500000x1 S6500000x3 where
  updateWindowDims := [1]
  insertedWindowDims := [0]
  scatterDimsToOperandDims := [0]
  indexVectorDim := 1
  wf := scatter_S100000x3_S6500000x1_S6500000x3_1_0_0_1_wf

class Facts : Prop extends Facts₀ where

variable [Facts]
-- ==== Proof.Layers.lean ====
/-
  The graph-convolution network's host-side pieces, as pure functions of arrays.

  A layer takes node features h (one row per node), multiplies nothing itself, and propagates: every edge (s, d) —
  the 6 400 000 given edges followed by one self loop per node — carries row s of h, scaled by the edge's weight
  1/sqrt(deg s) · 1/sqrt(deg d), into row d, where the rows arriving at a node are summed; then the bias row is added
  to every node.  deg counts the edges arriving at a node, and a node no edge arrives at gets the factor 0.  An index
  below zero counts from the end (100000 is added to it) before rows are fetched; rows are summed at the index as
  given.  The first layer's result passes through max(·, 0).  Every piece below is one composition of the array
  operations the program applies, over any float instance; nothing is proved here.
-/
import proofs.«102516_j13219909337481_2_alg».proof.Proof.Gen.KernelIdeal

noncomputable section

namespace Cert.KernelIdeal.Layers

open Cert.KernelIdeal Cert.KernelIdeal.Gen Idealize.ShloMosaic

variable {F : FTy → Type} [FloatOps F]

/-- The source node of every edge: the edge list's first row, then the self loops 0, 1, …, 99999. -/
def sources (ei : (⟨S2x6400000, .i32⟩ : BufTy).Contents (Elt F)) : (⟨S6500000, .i32⟩ : BufTy).Contents (Elt F) :=
  concatenate S6500000 0 [⟨S6400000, shapeCast S6400000 (extractStridedSlice S1x6400000 ![0, 0] ei slices_S2x6400000_S1x6400000_0_0) shapeCasts_S1x6400000_S6400000⟩, ⟨S100000, iotaInDim S100000 32 0⟩] concatenates_S6400000_S100000_S6500000_d0

/-- The destination node of every edge: the edge list's second row, then the self loops. -/
def targets (ei : (⟨S2x6400000, .i32⟩ : BufTy).Contents (Elt F)) : (⟨S6500000, .i32⟩ : BufTy).Contents (Elt F) :=
  concatenate S6500000 0 [⟨S6400000, shapeCast S6400000 (extractStridedSlice S1x6400000 ![1, 0] ei slices_S2x6400000_S1x6400000_1_0) shapeCasts_S1x6400000_S6400000⟩, ⟨S100000, iotaInDim S100000 32 0⟩] concatenates_S6400000_S100000_S6500000_d0

/-- Node indices as a column of row-fetch positions: an index below zero counts from the end. -/
def fetchColumn (v : (⟨S6500000, .i32⟩ : BufTy).Contents (Elt F)) : (⟨S6500000x1, .i32⟩ : BufTy).Contents (Elt F) :=
  broadcastInDim S6500000x1 ![0] bcast_S6500000_S6500000x1_0
    (select (cmpi .slt v (broadcastInDim S6500000 ![] bcast_S_S6500000 (constantI S_ 32 0#32)))
      (addi v (broadcastInDim S6500000 ![] bcast_S_S6500000 (constantI S_ 32 100000#32))) v)

/-- Node indices as a column of positions at which rows are summed. -/
def sumColumn (v : (⟨S6500000, .i32⟩ : BufTy).Contents (Elt F)) : (⟨S6500000x1, .i32⟩ : BufTy).Contents (Elt F) :=
  broadcastInDim S6500000x1 ![0] bcast_S6500000_S6500000x1_0 v

/-- The number of edges arriving at each node: a one summed into the node of every destination. -/
def degree (d : (⟨S6500000, .i32⟩ : BufTy).Contents (Elt F)) : (⟨S100000, .f32⟩ : BufTy).Contents (Elt F) :=
  Host.scatterAdd scatter_S100000_S6500000x1_S6500000_n_0_0_1 (broadcastInDim S100000 ![] bcast_S_S100000 (constant S_ .f32 0x00000000#32))
    (sumColumn d) (broadcastInDim S6500000 ![] bcast_S_S6500000 (constant S_ .f32 0x3F800000#32))

/-- Whether a node's degree is positive, and its inverse square root: the two arrays the selection below chooses by. -/
def degreePositive (d : (⟨S6500000, .i32⟩ : BufTy).Contents (Elt F)) : (⟨S100000, .i1⟩ : BufTy).Contents (Elt F) :=
  cmpf .ogt (degree (F := F) d) (broadcastInDim S100000 ![] bcast_S_S100000 (constant S_ .f32 0x00000000#32))
def degreeRsqrt (d : (⟨S6500000, .i32⟩ : BufTy).Contents (Elt F)) : (⟨S100000, .f32⟩ : BufTy).Contents (Elt F) :=
  Host.rsqrt (degree (F := F) d)

/-- Each node's factor: the inverse square root of its degree, and zero where the degree is not positive. -/
def nodeFactor (d : (⟨S6500000, .i32⟩ : BufTy).Contents (Elt F)) : (⟨S100000, .f32⟩ : BufTy).Contents (Elt F) :=
  select (degreePositive (F := F) d) (degreeRsqrt (F := F) d) (broadcastInDim S100000 ![] bcast_S_S100000 (id (constant S_ .f32 0x00000000#32)))

/-- Each edge's weight: its source's factor times its destination's factor, both fetched from one factor array. -/
def edgeWeightOf (f : (⟨S100000, .f32⟩ : BufTy).Contents (Elt F)) (s d : (⟨S6500000, .i32⟩ : BufTy).Contents (Elt F)) : (⟨S6500000, .f32⟩ : BufTy).Contents (Elt F) :=
  mulf (Host.gather gather_S100000_S6500000x1_S6500000_n_0_n_n_0_1_1 f (fetchColumn s))
    (Host.gather gather_S100000_S6500000x1_S6500000_n_0_n_n_0_1_1 f (fetchColumn d))
def edgeWeight (s d : (⟨S6500000, .i32⟩ : BufTy).Contents (Elt F)) : (⟨S6500000, .f32⟩ : BufTy).Contents (Elt F) :=
  edgeWeightOf (nodeFactor (F := F) d) s d

/-- One propagation over 16 features: rows of h fetched at the sources, scaled edge by edge, summed at the
    destinations into zero, the bias row added to every node. -/
def propagate16 (s d : (⟨S6500000, .i32⟩ : BufTy).Contents (Elt F)) (w : (⟨S6500000, .f32⟩ : BufTy).Contents (Elt F))
    (h : (⟨S100000x16, .f32⟩ : BufTy).Contents (Elt F)) (brow : (⟨S1x16, .f32⟩ : BufTy).Contents (Elt F)) : (⟨S100000x16, .f32⟩ : BufTy).Contents (Elt F) :=
  addf
    (Host.scatterAdd scatter_S100000x16_S6500000x1_S6500000x16_1_0_0_1 (broadcastInDim S100000x16 ![] bcast_S_S100000x16 (constant S_ .f32 0x00000000#32))
      (sumColumn d)
      (mulf (Host.gather gather_S100000x16_S6500000x1_S6500000x16_1_0_n_n_0_1_116 h (fetchColumn s))
        (broadcastInDim S6500000x16 ![0, 1] bcast_S6500000x1_S6500000x16_0_1 (broadcastInDim S6500000x1 ![0] bcast_S6500000_S6500000x1_0 w))))
    (broadcastInDim S100000x16 ![0, 1] bcast_S1x16_S100000x16_0_1 brow)

/-- The rectifier: the larger of an entry and zero. -/
def rectify16 (h : (⟨S100000x16, .f32⟩ : BufTy).Contents (Elt F)) : (⟨S100000x16, .f32⟩ : BufTy).Contents (Elt F) :=
  maximumf h (broadcastInDim S100000x16 ![] bcast_S_S100000x16 (constant S_ .f32 0x00000000#32))

/-- One propagation over 3 features. -/
def propagate3 (s d : (⟨S6500000, .i32⟩ : BufTy).Contents (Elt F)) (w : (⟨S6500000, .f32⟩ : BufTy).Contents (Elt F))
    (h : (⟨S100000x3, .f32⟩ : BufTy).Contents (Elt F)) (brow : (⟨S1x3, .f32⟩ : BufTy).Contents (Elt F)) : (⟨S100000x3, .f32⟩ : BufTy).Contents (Elt F) :=
  addf
    (Host.scatterAdd scatter_S100000x3_S6500000x1_S6500000x3_1_0_0_1 (broadcastInDim S100000x3 ![] bcast_S_S100000x3 (constant S_ .f32 0x00000000#32))
      (sumColumn d)
      (mulf (Host.gather gather_S100000x3_S6500000x1_S6500000x3_1_0_n_n_0_1_13 h (fetchColumn s))
        (broadcastInDim S6500000x3 ![0, 1] bcast_S6500000x1_S6500000x3_0_1 (broadcastInDim S6500000x1 ![0] bcast_S6500000_S6500000x1_0 w))))
    (broadcastInDim S100000x3 ![0, 1] bcast_S1x3_S100000x3_0_1 brow)

/-- The first layer's matrix product, node features times the first weight matrix: entry (p, q) sums x(p, k) · w(k, q) over k. -/
def product16 (x : (⟨S100000x128, .f32⟩ : BufTy).Contents (Elt F)) (w : (⟨S128x16, .f32⟩ : BufTy).Contents (Elt F)) : (⟨S100000x16, .f32⟩ : BufTy).Contents (Elt F) :=
  Host.dotGeneral (DotDims.plain 100000 128 16) none x w

/-- The second layer's matrix product. -/
def product3 (h : (⟨S100000x16, .f32⟩ : BufTy).Contents (Elt F)) (w : (⟨S16x3, .f32⟩ : BufTy).Contents (Elt F)) : (⟨S100000x3, .f32⟩ : BufTy).Contents (Elt F) :=
  Host.dotGeneral (DotDims.plain 100000 16 3) none h w

/-- The whole two-layer network as one function of its six arguments, the two bias vectors given as rows: project,
    propagate, add the bias, rectify; project, propagate, add the bias.  Both layers use the same edge lists and the
    same edge weights. -/
def network (x : (⟨S100000x128, .f32⟩ : BufTy).Contents (Elt F)) (ei : (⟨S2x6400000, .i32⟩ : BufTy).Contents (Elt F)) (w1 : (⟨S128x16, .f32⟩ : BufTy).Contents (Elt F)) (brow1 : (⟨S1x16, .f32⟩ : BufTy).Contents (Elt F))
    (w2 : (⟨S16x3, .f32⟩ : BufTy).Contents (Elt F)) (brow2 : (⟨S1x3, .f32⟩ : BufTy).Contents (Elt F)) : (⟨S100000x3, .f32⟩ : BufTy).Contents (Elt F) :=
  propagate3 (sources ei) (targets ei) (edgeWeight (sources ei) (targets ei))
    (product3 (rectify16 (propagate16 (sources ei) (targets ei) (edgeWeight (sources ei) (targets ei)) (product16 x w1) brow1)) w2)
    brow2

end Cert.KernelIdeal.Layers

end
-- ==== Proof.RefValue.lean ====
/-
  The reference program's result is the two-layer network of its arguments.

  The reference applies, in order, exactly the operations the network's pieces are made of: it builds the edge lists,
  weighs the edges from the targets' degrees, multiplies the node features by the first weight matrix, propagates,
  adds the first bias (laid out as a row by a broadcast along the second axis), rectifies, multiplies by the second
  weight matrix, weighs the edges again — the same weights, computed a second time from the same targets —,
  propagates and adds the second bias.  So its composed term and the network's unfold to one and the same
  composition; the dimension records of the two programs are equal field by field.
-/
import proofs.«102516_j13219909337481_2_alg».proof.Proof.RefRun
import proofs.«102516_j13219909337481_2_alg».proof.Proof.Layers

set_option maxRecDepth 16384

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- The reference's result term is the network of the argument arrays, each bias a row by broadcasting. -/
theorem result_eq (m : (ℓ : Loc nD τ sig) → Buf (Elt F) ℓ) (c : Dev nD) :
    Cert.ReferenceIdeal.ValueP.res_main_v87 m c
      = Cert.KernelIdeal.Layers.network (F := F) (m ((c.tc : Thread nD τ).loc main_arg0)) (m ((c.tc : Thread nD τ).loc main_arg1))
          (m ((c.tc : Thread nD τ).loc main_arg2)) (broadcastInDim S1x16 ![1] bcast_S16_S1x16_1 (m ((c.tc : Thread nD τ).loc main_arg3)))
          (m ((c.tc : Thread nD τ).loc main_arg4)) (broadcastInDim S1x3 ![1] bcast_S3_S1x3_1 (m ((c.tc : Thread nD τ).loc main_arg5))) := by
  unfold Cert.ReferenceIdeal.ValueP.res_main_v87
  rfl

end Cert.ReferenceIdeal.RefValue

end
-- ==== Proof.KernelRun.lean ====
/-
  The idealized kernel program's run, with its result named.

  The program is eight segments: three stretches of host operations, the first matrix-product region, two more
  stretches, the second region, and a last stretch.  The buffer contents at each boundary are a fold from the launch
  memory: a stretch applies its operations in order, a region replaces its arrays by what its write-backs leave and
  keeps every other buffer.  Every weakly fair execution terminates without a fault, and in the final state every
  unscoped buffer holds the last boundary's contents; so the result buffer holds the last boundary's contents at
  the result, and the six argument arrays hold what they held at launch.
-/
import proofs.«102516_j13219909337481_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting; the result buffer ends at the last
    boundary's contents and each argument array as launched. -/
theorem run : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.KernelStretches.lean ====
/-
  The host stretches of the idealized kernel program, each read as a function of the buffer contents it starts from.

  Between the launch and the first matrix-product region the program builds the edge lists (sources and targets with
  the self loops appended), counts each node's arriving edges, takes the inverse square roots and weighs every edge;
  between the two regions it propagates the first product over the edges, adds the first bias and rectifies; after
  the second region it propagates the second product and adds the second bias.  Each stretch is a fold of its
  operations over the contents it starts from; what it leaves at a buffer it writes is the composition of those
  operations on what the contents held at the buffers it reads, and a buffer it does not write keeps its contents.
  The contents here are ANY valuation, so the folds below never mention the launch memory.
-/
import proofs.«102516_j13219909337481_2_alg».proof.Proof.Gen.KernelIdeal.Launch
import proofs.«102516_j13219909337481_2_alg».proof.Proof.Layers
import Idealize.ShloMosaic.Lib.StableHlo.Run

set_option maxRecDepth 16384

noncomputable section

namespace Cert.KernelIdeal.Stretches

open Cert.KernelIdeal Cert.KernelIdeal.Gen Cert.KernelIdeal.Layers Idealize.ShloMosaic Idealize.ShloMosaic.TcCoe Idealize.ShloMosaic.StableHlo

variable {F : FTy → Type} [FloatOps F]

/-- The operations before the first region, in order. -/
abbrev prelude : List (HloOp τ sig (Elt F)) := hostOps0 ++ hostOps0_1 ++ hostOps0_2
/-- The operations between the two regions, in order. -/
abbrev middle : List (HloOp τ sig (Elt F)) := hostOps1 ++ hostOps1_1

/-- Spell a stretch as its literal list and rewrite every operation's result, outermost first. -/
macro "stretch_read" : tactic =>
  `(tactic| (simp only [prelude, middle, hostOps0, hostOps0_1, hostOps0_2, hostOps1, hostOps1_1, hostOps2, List.cons_append, List.nil_append]
             after_results))

/-- The same in one simplifier pass, each repeated subterm visited once: for a result many operations deep. -/
macro "stretch_read_once" : tactic =>
  `(tactic| (simp only [prelude, middle, hostOps0, hostOps0_1, hostOps0_2, hostOps1, hostOps1_1, hostOps2, List.cons_append, List.nil_append]
             after_results_simp))

variable (V : Valuation τ sig (Elt F))

/-! ## Before the first region -/

/-- The sources of the edges are read off the edge list. -/
theorem prelude_sources : after prelude V (Proc.devRef .tc main_v3) = sources (V (Proc.devRef .tc main_arg1)) := by
  stretch_read <;> rfl

/-- The targets of the edges are read off the edge list. -/
theorem prelude_targets : after prelude V (Proc.devRef .tc main_v6) = targets (V (Proc.devRef .tc main_arg1)) := by
  stretch_read <;> rfl

/-- Every edge's weight, from the targets' degrees. -/
theorem prelude_weight : after prelude V (Proc.devRef .tc main_v29)
    = edgeWeight (sources (V (Proc.devRef .tc main_arg1))) (targets (V (Proc.devRef .tc main_arg1))) := by
  stretch_read_once
  rfl

/-- The stretch writes none of the float arguments. -/
theorem prelude_kept_arg0 : after prelude V (Proc.devRef .tc main_arg0) = V (Proc.devRef .tc main_arg0) := by
  stretch_read
theorem prelude_kept_arg2 : after prelude V (Proc.devRef .tc main_arg2) = V (Proc.devRef .tc main_arg2) := by
  stretch_read
theorem prelude_kept_arg3 : after prelude V (Proc.devRef .tc main_arg3) = V (Proc.devRef .tc main_arg3) := by
  stretch_read
theorem prelude_kept_arg4 : after prelude V (Proc.devRef .tc main_arg4) = V (Proc.devRef .tc main_arg4) := by
  stretch_read
theorem prelude_kept_arg5 : after prelude V (Proc.devRef .tc main_arg5) = V (Proc.devRef .tc main_arg5) := by
  stretch_read

/-! ## Between the regions -/

/-- The first layer's output: the first product propagated over the edges, the bias row added, rectified. -/
theorem middle_hidden : after middle V (Proc.devRef .tc main_v47)
    = rectify16 (propagate16 (V (Proc.devRef .tc main_v3)) (V (Proc.devRef .tc main_v6)) (V (Proc.devRef .tc main_v29)) (V (Proc.devRef .tc main_v30))
        (shapeCast S1x16 (V (Proc.devRef .tc main_arg3)) shapeCasts_S16_S1x16)) := by
  stretch_read_once
  rfl

/-- The stretch keeps the edge lists, the weights and the second layer's arguments. -/
theorem middle_kept_v3 : after middle V (Proc.devRef .tc main_v3) = V (Proc.devRef .tc main_v3) := by
  stretch_read
theorem middle_kept_v6 : after middle V (Proc.devRef .tc main_v6) = V (Proc.devRef .tc main_v6) := by
  stretch_read
theorem middle_kept_v29 : after middle V (Proc.devRef .tc main_v29) = V (Proc.devRef .tc main_v29) := by
  stretch_read
theorem middle_kept_arg4 : after middle V (Proc.devRef .tc main_arg4) = V (Proc.devRef .tc main_arg4) := by
  stretch_read
theorem middle_kept_arg5 : after middle V (Proc.devRef .tc main_arg5) = V (Proc.devRef .tc main_arg5) := by
  stretch_read

/-! ## After the second region -/

/-- The result: the second product propagated over the edges, the second bias row added. -/
theorem tail_result : after hostOps2 V (Proc.devRef .tc main_v64)
    = propagate3 (V (Proc.devRef .tc main_v3)) (V (Proc.devRef .tc main_v6)) (V (Proc.devRef .tc main_v29)) (V (Proc.devRef .tc main_v48))
        (shapeCast S1x3 (V (Proc.devRef .tc main_arg5)) shapeCasts_S3_S1x3) := by
  stretch_read_once
  rfl

end Cert.KernelIdeal.Stretches

end
-- ==== Proof.LibFold.lean ====
/-
  A line of host operations run in two stretches.

  `StableHlo.after ops V` is the valuation after the operations `ops`, applied in order to the valuation `V`.  Running
  a concatenation is running the first stretch and then the second from what the first leaves.  With it a long
  prefix of host operations can be read stage by stage: a later stretch's result as a function of what the earlier
  stretches left at its operands, each operand then read in its own smaller stretch — instead of one composed term in
  which a value used several times is written out once per use.
-/
import Idealize.ShloMosaic.Lib.StableHlo.Run

namespace Idealize.ShloMosaic.StableHlo

variable {τ : Topo} {sig : RefSig} {Val : EltTy → Type}

/-- The valuation after two stretches run one after the other. -/
theorem after_append (l₁ l₂ : List (HloOp τ sig Val)) (V : Valuation τ sig Val) :
    after (l₁ ++ l₂) V = after l₂ (after l₁ V) := by
  induction l₁ generalizing V with
  | nil => rfl
  | cons op ops ih => exact ih (op.result V)

end Idealize.ShloMosaic.StableHlo
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.RegionProduct0.lean ====
/-
  The first matrix-product region, read as one matrix product.

  The region walks the 100000 rows of its left operand in 10 blocks of 10000 rows. At block t it multiplies rows
  10000·t … 10000·t + 9999 of the left operand (100000 × 128) by the whole right operand (128 × 16), accumulating into
  zero, and writes the 10000 × 16 result to the same rows of the output. The narrowing of both operands before the
  product is the identity over the extended reals. So entry (p, q) of the output array, once every block has been
  written back, is the sum over k of left(p, k) · right(k, q) of the arrays the region found on entry — for ANY
  entry contents V.

  Steps: the product of one row block at an entry (block_product_entry); the three index maps over the grid
  (index_facts); the left block's entry (r, k) at point t is the array's entry (10000·t + r, k) and the right block is the
  whole right array (left_block_entry, right_block_entry); what point t writes back is block t of the whole-array
  product (written_block); every row lies in the block of point row / 10000 (covered); hence the array
  (region0_array) and its entries (region0_entry).
-/
import proofs.«102516_j13219909337481_2_alg».proof.Proof.Gen.KernelIdeal.Frame
import proofs.«102516_j13219909337481_2_alg».proof.Proof.LibPlainDot
import Idealize.ShloMosaic.Lib.Pipeline.Value
import Idealize.ShloMosaic.Lib.ValueIdx
import Idealize.ShloMosaic.PureOps.Ideal.Laws

noncomputable section

open Cert.KernelIdeal Cert.KernelIdeal.Gen Idealize.ShloMosaic Idealize.ShloMosaic.TcCoe Idealize.SL.Sem
open Idealize.ShloMosaic.ValueIdx
open Idealize.ShloMosaic.Pipeline (Dat)

namespace Cert.KernelIdeal.RegionProduct.First

variable (V : (c : Dev nD) → (b : Ref sig .tc) → Buf (Elt Ideal) ((c : Thread nD τ).loc b))

/-- The zero offset pair is the constant-zero function. -/
theorem zero_offsets : (![0, 0] : Fin 2 → Nat) = fun _ => 0 := funext fun a => by fin_cases a <;> rfl

/-- Two products of extended reals with equal factors are equal. -/
theorem mul_eq_mul_of {a a' b b' : EReal} (ha : a = a') (hb : b = b') : a * b = a' * b' := by rw [ha, hb]

/-- The matrix product of a 100000 × 128 array by a 128 × 16 array, entry by entry. -/
abbrev rowProduct (x : S100000x128.Idx → Elt Ideal .f32) (w : S128x16.Idx → Elt Ideal .f32) : S100000x16.Idx → Elt Ideal .f32 :=
  fun i => ∑ k : Fin 128, x (ix2 (i 0) k) * w (ix2 k (i 1))

/-- One row block times the right operand, at entry (r, q): the sum over the contraction index (narrowing is
    the identity over the extended reals, and the accumulator starts at zero). -/
theorem block_product_entry (x0 : Vec Ideal S10000x128 .f32) (x1 : Vec Ideal S128x16 .f32) (r : Fin 10000) (q : Fin 16) :
    k0_pay1 x0 x1 (ix2 r q) = ∑ k : Fin 128, x0 (ix2 r k) * x1 (ix2 k q) := by
  unfold k0_pay1
  exact Cert.PlainDot.matmul_zero_apply dot_S10000x128_S128x16_S10000x16_1_0_0_1_n_n rfl none _ _ r q

/-- The index maps over the grid: the left operand's and the output's block index is (t, 0), the right operand's (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (r, k) of the left operand's block at point t is the array's entry (10000·t + r, k). -/
theorem left_block_entry (c : Dev nD) (t : Fin cfg0.N) (r : Fin 10000) (k : Fin 128) (i : S100000x128.Idx)
    (h0 : (i 0).val = 10000 * t.val + r.val) (h1 : (i 1).val = k.val) :
    (iblk0 V c 0 t : Vec Ideal S10000x128 .f32) (ix2 r k) = (V c main_arg0 : S100000x128.Idx → Elt Ideal .f32) i := by
  obtain ⟨e00, e01, -⟩ := index_facts t
  show (V c main_arg0 : S100000x128.Idx → Elt Ideal .f32) (((cfg0.win 0).blk t).view.emb (ix2 r k)) = _
  congr 1
  funext a; apply Fin.ext
  match a with
  | ⟨0, _⟩ => show win0_0.index t (0 : Fin 2) * 10000 + 1 * r.val = (i 0).val; omega
  | ⟨1, _⟩ => show win0_0.index t (1 : Fin 2) * 128 + 1 * k.val = (i 1).val; omega

/-- The right operand's block at every point is the whole right array. -/
theorem right_block_entry (c : Dev nD) (t : Fin cfg0.N) (k : Fin 128) (q : Fin 16) (i : S128x16.Idx)
    (h0 : (i 0).val = k.val) (h1 : (i 1).val = q.val) :
    (iblk0 V c 1 t : Vec Ideal S128x16 .f32) (ix2 k q) = (V c main_arg2 : S128x16.Idx → Elt Ideal .f32) i := by
  obtain ⟨-, -, e10, e11, -⟩ := index_facts t
  show (V c main_arg2 : S128x16.Idx → Elt Ideal .f32) (((cfg0.win 1).blk t).view.emb (ix2 k q)) = _
  congr 1
  funext a; apply Fin.ext
  match a with
  | ⟨0, _⟩ => show win0_1.index t (0 : Fin 2) * 128 + 1 * k.val = (i 0).val; omega
  | ⟨1, _⟩ => show win0_1.index t (1 : Fin 2) * 16 + 1 * q.val = (i 1).val; omega

/-- What point t writes back is block t of the whole-array product of the entry contents. -/
theorem written_block (c : Dev nD) (t : Fin cfg0.N) :
    (dat0 (F := Ideal) V c).flushed 2 t = ((cfg0.win 2).blk t).view.read (Elt Ideal) (rowProduct (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x16) zero_offsets]
  funext j
  obtain ⟨r, q, rfl⟩ : ∃ (r : Fin 10000) (q : Fin 16), j = ix2 r q := ⟨j 0, j 1, eq_ix2 j⟩
  obtain ⟨-, -, -, -, e20, e21⟩ := index_facts t
  show k0_pay1 (iblk0 V c 0 t) (iblk0 V c 1 t) (ix2 r q) = rowProduct (V c main_arg0) (V c main_arg2) (((cfg0.win 2).blk t).view.emb (ix2 r q))
  refine (block_product_entry _ _ r q).trans ?_
  refine Finset.sum_congr rfl fun k _ => ?_
  refine mul_eq_mul_of (left_block_entry V c t r k _ ?_ rfl) (right_block_entry V c t k q _ rfl ?_)
  · show win0_2.index t (0 : Fin 2) * 10000 + 1 * r.val = 10000 * t.val + r.val; omega
  · show win0_2.index t (1 : Fin 2) * 16 + 1 * q.val = q.val; omega

/-- An index of the output array is in point t's block iff each coordinate is in the block's range on its axis. -/
theorem mem_block (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v30).slice (win0_2.rect t)).set ↔ _
  rw [View.set_slice_whole, Rect.mem_set_unit]
  exact Iff.rfl

/-- Row p of the output lies in the block of point p / 10000, which is written back. -/
theorem covered (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : grid0.N = 10 := N_0
  obtain ⟨t, ht⟩ : ∃ t : Fin cfg0.N, t.val = (i 0).val / 10000 := ⟨⟨(i 0).val / 10000, by show _ < grid0.N; omega⟩, rfl⟩
  obtain ⟨-, -, -, -, e20, e21⟩ := index_facts t
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

end Cert.KernelIdeal.RegionProduct.First

namespace Cert.KernelIdeal.RegionProduct

variable (V : (c : Dev nD) → (b : Ref sig .tc) → Buf (Elt Ideal) ((c : Thread nD τ).loc b))

/-- The output array after the region: the matrix product of the two operand arrays as the region found them. -/
theorem region0_array (c : Dev nD) :
    (dat0 (F := Ideal) V c).arrAt 2 cfg0.N = First.rowProduct (V c main_arg0) (V c main_arg2) :=
  (dat0 V c).arrAt_eq_of_cover 2 _ (fun t _ => First.written_block V c t) First.covered

/-- Entry (p, q) of the output array after the region, the operand arrays named x and w. -/
theorem region0_entry (c : Dev nD) (x : S100000x128.Idx → Elt Ideal .f32) (w : S128x16.Idx → Elt Ideal .f32)
    (hx : V c main_arg0 = x) (hw : V c main_arg2 = w) (p : Fin 100000) (q : Fin 16) :
    (dat0 (F := Ideal) V c).arrAt 2 cfg0.N (ix2 p q) = ∑ k : Fin 128, x (ix2 p k) * w (ix2 k q) := by
  rw [region0_array V c, hx, hw]

end Cert.KernelIdeal.RegionProduct

end
-- ==== Proof.RegionProduct1.lean ====
/-
  The second matrix-product region, read as one matrix product.

  The region walks the 100000 rows of its left operand in 10 blocks of 10000 rows. At block t it multiplies rows
  10000·t … 10000·t + 9999 of the left operand (100000 × 16) by the whole right operand (16 × 3), accumulating into
  zero, and writes the 10000 × 3 result to the same rows of the output. The narrowing of both operands before the
  product is the identity over the extended reals. So entry (p, q) of the output array, once every block has been
  written back, is the sum over k of left(p, k) · right(k, q) of the arrays the region found on entry — for ANY
  entry contents V.

  Steps: the product of one row block at an entry (block_product_entry); the three index maps over the grid
  (index_facts); the left block's entry (r, k) at point t is the array's entry (10000·t + r, k) and the right block is the
  whole right array (left_block_entry, right_block_entry); what point t writes back is block t of the whole-array
  product (written_block); every row lies in the block of point row / 10000 (covered); hence the array
  (region1_array) and its entries (region1_entry).
-/
import proofs.«102516_j13219909337481_2_alg».proof.Proof.Gen.KernelIdeal.Frame
import proofs.«102516_j13219909337481_2_alg».proof.Proof.LibPlainDot
import Idealize.ShloMosaic.Lib.Pipeline.Value
import Idealize.ShloMosaic.Lib.ValueIdx
import Idealize.ShloMosaic.PureOps.Ideal.Laws

noncomputable section

open Cert.KernelIdeal Cert.KernelIdeal.Gen Idealize.ShloMosaic Idealize.ShloMosaic.TcCoe Idealize.SL.Sem
open Idealize.ShloMosaic.ValueIdx
open Idealize.ShloMosaic.Pipeline (Dat)

namespace Cert.KernelIdeal.RegionProduct.Second

variable (V : (c : Dev nD) → (b : Ref sig .tc) → Buf (Elt Ideal) ((c : Thread nD τ).loc b))

/-- The zero offset pair is the constant-zero function. -/
theorem zero_offsets : (![0, 0] : Fin 2 → Nat) = fun _ => 0 := funext fun a => by fin_cases a <;> rfl

/-- Two products of extended reals with equal factors are equal. -/
theorem mul_eq_mul_of {a a' b b' : EReal} (ha : a = a') (hb : b = b') : a * b = a' * b' := by rw [ha, hb]

/-- The matrix product of a 100000 × 16 array by a 16 × 3 array, entry by entry. -/
abbrev rowProduct (x : S100000x16.Idx → Elt Ideal .f32) (w : S16x3.Idx → Elt Ideal .f32) : S100000x3.Idx → Elt Ideal .f32 :=
  fun i => ∑ k : Fin 16, x (ix2 (i 0) k) * w (ix2 k (i 1))

/-- One row block times the right operand, at entry (r, q): the sum over the contraction index (narrowing, like the reshaping of the left block to its own shape, is
    the identity over the extended reals, and the accumulator starts at zero). -/
theorem block_product_entry (x0 : Vec Ideal S10000x16 .f32) (x1 : Vec Ideal S16x3 .f32) (r : Fin 10000) (q : Fin 3) :
    k1_pay1 x0 x1 (ix2 r q) = ∑ k : Fin 16, x0 (ix2 r k) * x1 (ix2 k q) := by
  unfold k1_pay1
  rw [shapeCast_self]
  exact Cert.PlainDot.matmul_zero_apply dot_S10000x16_S16x3_S10000x3_1_0_0_1_n_n rfl none _ _ r q

/-- The index maps over the grid: the left operand's and the output's block index is (t, 0), the right operand's (0, 0). -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (r, k) of the left operand's block at point t is the array's entry (10000·t + r, k). -/
theorem left_block_entry (c : Dev nD) (t : Fin cfg1.N) (r : Fin 10000) (k : Fin 16) (i : S100000x16.Idx)
    (h0 : (i 0).val = 10000 * t.val + r.val) (h1 : (i 1).val = k.val) :
    (iblk1 V c 0 t : Vec Ideal S10000x16 .f32) (ix2 r k) = (V c main_v47 : S100000x16.Idx → Elt Ideal .f32) i := by
  obtain ⟨e00, e01, -⟩ := index_facts t
  show (V c main_v47 : S100000x16.Idx → Elt Ideal .f32) (((cfg1.win 0).blk t).view.emb (ix2 r k)) = _
  congr 1
  funext a; apply Fin.ext
  match a with
  | ⟨0, _⟩ => show win1_0.index t (0 : Fin 2) * 10000 + 1 * r.val = (i 0).val; omega
  | ⟨1, _⟩ => show win1_0.index t (1 : Fin 2) * 16 + 1 * k.val = (i 1).val; omega

/-- The right operand's block at every point is the whole right array. -/
theorem right_block_entry (c : Dev nD) (t : Fin cfg1.N) (k : Fin 16) (q : Fin 3) (i : S16x3.Idx)
    (h0 : (i 0).val = k.val) (h1 : (i 1).val = q.val) :
    (iblk1 V c 1 t : Vec Ideal S16x3 .f32) (ix2 k q) = (V c main_arg4 : S16x3.Idx → Elt Ideal .f32) i := by
  obtain ⟨-, -, e10, e11, -⟩ := index_facts t
  show (V c main_arg4 : S16x3.Idx → Elt Ideal .f32) (((cfg1.win 1).blk t).view.emb (ix2 k q)) = _
  congr 1
  funext a; apply Fin.ext
  match a with
  | ⟨0, _⟩ => show win1_1.index t (0 : Fin 2) * 16 + 1 * k.val = (i 0).val; omega
  | ⟨1, _⟩ => show win1_1.index t (1 : Fin 2) * 3 + 1 * q.val = (i 1).val; omega

/-- What point t writes back is block t of the whole-array product of the entry contents. -/
theorem written_block (c : Dev nD) (t : Fin cfg1.N) :
    (dat1 (F := Ideal) V c).flushed 2 t = ((cfg1.win 2).blk t).view.read (Elt Ideal) (rowProduct (V c main_v47) (V c main_arg4)) := by
  show (cfg1.win 2).cut (grid1.coords t) ((dat1 V c).after 2 t) = _
  rw [after1_2]
  unfold out1_2
  rw [View.canon_unit_zero zero_offsets]
  simp only [View.ld_unit_zero (S := S10000x16) zero_offsets, View.ld_unit_zero (S := S16x3) zero_offsets]
  funext j
  obtain ⟨r, q, rfl⟩ : ∃ (r : Fin 10000) (q : Fin 3), j = ix2 r q := ⟨j 0, j 1, eq_ix2 j⟩
  obtain ⟨-, -, -, -, e20, e21⟩ := index_facts t
  show k1_pay1 (iblk1 V c 0 t) (iblk1 V c 1 t) (ix2 r q) = rowProduct (V c main_v47) (V c main_arg4) (((cfg1.win 2).blk t).view.emb (ix2 r q))
  refine (block_product_entry _ _ r q).trans ?_
  refine Finset.sum_congr rfl fun k _ => ?_
  refine mul_eq_mul_of (left_block_entry V c t r k _ ?_ rfl) (right_block_entry V c t k q _ rfl ?_)
  · show win1_2.index t (0 : Fin 2) * 10000 + 1 * r.val = 10000 * t.val + r.val; omega
  · show win1_2.index t (1 : Fin 2) * 3 + 1 * q.val = q.val; omega

/-- An index of the output array is in point t's block iff each coordinate is in the block's range on its axis. -/
theorem mem_block (t : Fin cfg1.N) (i : S100000x3.Idx) :
    i ∈ ((cfg1.win 2).blk t).view.set ↔ ∀ a : Fin 2, win1_2.index t a * S10000x3.size a ≤ (i a).val ∧ (i a).val < win1_2.index t a * S10000x3.size a + S10000x3.size a := by
  show i ∈ ((View.whole main_v48).slice (win1_2.rect t)).set ↔ _
  rw [View.set_slice_whole, Rect.mem_set_unit]
  exact Iff.rfl

/-- Row p of the output lies in the block of point p / 10000, which is written back. -/
theorem covered (i : S100000x3.Idx) : ∃ t : Fin cfg1.N, (cfg1.win 2).flush t = true ∧ i ∈ ((cfg1.win 2).blk t).view.set := by
  have hi0 : (i 0).val < 100000 := (i 0).isLt
  have hi1 : (i 1).val < 3 := (i 1).isLt
  have hN : grid1.N = 10 := N_1
  obtain ⟨t, ht⟩ : ∃ t : Fin cfg1.N, t.val = (i 0).val / 10000 := ⟨⟨(i 0).val / 10000, by show _ < grid1.N; omega⟩, rfl⟩
  obtain ⟨-, -, -, -, e20, e21⟩ := index_facts t
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 3 ≤ (i 1).val ∧ (i 1).val < win1_2.index t (1 : Fin 2) * 3 + 3; omega

end Cert.KernelIdeal.RegionProduct.Second

namespace Cert.KernelIdeal.RegionProduct

variable (V : (c : Dev nD) → (b : Ref sig .tc) → Buf (Elt Ideal) ((c : Thread nD τ).loc b))

/-- The output array after the region: the matrix product of the two operand arrays as the region found them. -/
theorem region1_array (c : Dev nD) :
    (dat1 (F := Ideal) V c).arrAt 2 cfg1.N = Second.rowProduct (V c main_v47) (V c main_arg4) :=
  (dat1 V c).arrAt_eq_of_cover 2 _ (fun t _ => Second.written_block V c t) Second.covered

/-- Entry (p, q) of the output array after the region, the operand arrays named x and w. -/
theorem region1_entry (c : Dev nD) (x : S100000x16.Idx → Elt Ideal .f32) (w : S16x3.Idx → Elt Ideal .f32)
    (hx : V c main_v47 = x) (hw : V c main_arg4 = w) (p : Fin 100000) (q : Fin 3) :
    (dat1 (F := Ideal) V c).arrAt 2 cfg1.N (ix2 p q) = ∑ k : Fin 16, x (ix2 p k) * w (ix2 k q) := by
  rw [region1_array V c, hx, hw]

end Cert.KernelIdeal.RegionProduct

end
-- ==== Proof.KernelValue.lean ====
/-
  The idealized kernel program's result is the two-layer network of its arguments.

  The buffer contents are followed from the launch to the return.  Before the first region the program leaves the
  edge lists and the edge weights, and the arguments untouched.  The first region's write-backs fill its output
  array with the product of the node features and the first weight matrix — block t of the output is rows
  10000·t … 10000·t + 9999 of that product, and the ten blocks cover the array —, and a region changes no buffer but
  its output.  The stretch between the regions propagates that product, adds the first bias laid out as a row by a
  reshape, and rectifies; the second region multiplies by the second weight matrix in the same way; the last stretch
  propagates and adds the second bias.  Both regions' entries and the host's matrix product are the same sum over
  the contracted axis, so the composition is the network's.
-/
import proofs.«102516_j13219909337481_2_alg».proof.Proof.Gen.KernelIdeal.Frame
import proofs.«102516_j13219909337481_2_alg».proof.Proof.KernelStretches
import proofs.«102516_j13219909337481_2_alg».proof.Proof.LibFold
import proofs.«102516_j13219909337481_2_alg».proof.Proof.LibPlainDot
import proofs.«102516_j13219909337481_2_alg».proof.Proof.RegionProduct0
import proofs.«102516_j13219909337481_2_alg».proof.Proof.RegionProduct1

set_option maxRecDepth 16384

noncomputable section

namespace Cert.KernelIdeal.KernelValue

open Cert.KernelIdeal Cert.KernelIdeal.Gen Cert.KernelIdeal.Layers Cert.KernelIdeal.Stretches
open Idealize.ShloMosaic Idealize.ShloMosaic.TcCoe Idealize.ShloMosaic.StableHlo Idealize.ShloMosaic.ValueIdx

variable (m : (ℓ : Loc nD τ sig) → Buf (Elt Ideal) ℓ) (ρ : Dev nD → PrngReg) (c : Dev nD)

/-! ## The boundaries as folds of whole stretches -/

/-- The first region is entered from the launch memory run through everything before it. -/
theorem entry0_eq : W3 m ρ c = after prelude (W0 m ρ c) := by
  show after hostOps0_2 (after hostOps0_1 (after hostOps0 (W0 m ρ c))) = after (hostOps0 ++ hostOps0_1 ++ hostOps0_2) (W0 m ρ c)
  rw [after_append, after_append]

/-- The second region is entered from the first region's exit run through the stretch between them. -/
theorem entry1_eq : W6 m ρ c = after middle (W4 m ρ c) := by
  show after hostOps1_1 (after hostOps1 (W4 m ρ c)) = after (hostOps1 ++ hostOps1_1) (W4 m ρ c)
  rw [after_append]

/-! ## At the first region -/

theorem entry0_x : W3 m ρ c (Proc.devRef .tc main_arg0) = (m ((c : Thread nD τ).loc main_arg0)) := by rw [entry0_eq]; exact prelude_kept_arg0 _
theorem entry0_w1 : W3 m ρ c (Proc.devRef .tc main_arg2) = (m ((c : Thread nD τ).loc main_arg2)) := by rw [entry0_eq]; exact prelude_kept_arg2 _
theorem entry0_b1 : W3 m ρ c (Proc.devRef .tc main_arg3) = (m ((c : Thread nD τ).loc main_arg3)) := by rw [entry0_eq]; exact prelude_kept_arg3 _
theorem entry0_w2 : W3 m ρ c (Proc.devRef .tc main_arg4) = (m ((c : Thread nD τ).loc main_arg4)) := by rw [entry0_eq]; exact prelude_kept_arg4 _
theorem entry0_b2 : W3 m ρ c (Proc.devRef .tc main_arg5) = (m ((c : Thread nD τ).loc main_arg5)) := by rw [entry0_eq]; exact prelude_kept_arg5 _
theorem entry0_sources : W3 m ρ c (Proc.devRef .tc main_v3) = sources (m ((c : Thread nD τ).loc main_arg1)) := by rw [entry0_eq]; exact prelude_sources _
theorem entry0_targets : W3 m ρ c (Proc.devRef .tc main_v6) = targets (m ((c : Thread nD τ).loc main_arg1)) := by rw [entry0_eq]; exact prelude_targets _
theorem entry0_weight : W3 m ρ c (Proc.devRef .tc main_v29)
    = edgeWeight (sources (m ((c : Thread nD τ).loc main_arg1))) (targets (m ((c : Thread nD τ).loc main_arg1))) := by rw [entry0_eq]; exact prelude_weight _

/-- The first region leaves the product of the node features and the first weight matrix in its output array. -/
theorem exit0_product : W4 m ρ c (Proc.devRef .tc main_v30) = product16 (m ((c : Thread nD τ).loc main_arg0)) (m ((c : Thread nD τ).loc main_arg2)) := by
  refine (W4_arr m ρ c 2).trans ?_
  funext i
  obtain ⟨p, q, rfl⟩ : ∃ (p : Fin 100000) (q : Fin 16), i = ix2 p q := ⟨i 0, i 1, eq_ix2 i⟩
  refine (RegionProduct.region0_entry (V3 m ρ) c (m ((c : Thread nD τ).loc main_arg0)) (m ((c : Thread nD τ).loc main_arg2)) (entry0_x m ρ c) (entry0_w1 m ρ c) p q).trans ?_
  exact (Cert.PlainDot.dotGeneral_apply _ rfl none .single _ _ p q).symm

/-- The first region changes no buffer but its output. -/
theorem exit0_sources : W4 m ρ c (Proc.devRef .tc main_v3) = sources (m ((c : Thread nD τ).loc main_arg1)) := (W4_of_ne m ρ c main_v3 (by decide)).trans (entry0_sources m ρ c)
theorem exit0_targets : W4 m ρ c (Proc.devRef .tc main_v6) = targets (m ((c : Thread nD τ).loc main_arg1)) := (W4_of_ne m ρ c main_v6 (by decide)).trans (entry0_targets m ρ c)
theorem exit0_weight : W4 m ρ c (Proc.devRef .tc main_v29) = edgeWeight (sources (m ((c : Thread nD τ).loc main_arg1))) (targets (m ((c : Thread nD τ).loc main_arg1))) :=
  (W4_of_ne m ρ c main_v29 (by decide)).trans (entry0_weight m ρ c)
theorem exit0_b1 : W4 m ρ c (Proc.devRef .tc main_arg3) = (m ((c : Thread nD τ).loc main_arg3)) := (W4_of_ne m ρ c main_arg3 (by decide)).trans (entry0_b1 m ρ c)
theorem exit0_w2 : W4 m ρ c (Proc.devRef .tc main_arg4) = (m ((c : Thread nD τ).loc main_arg4)) := (W4_of_ne m ρ c main_arg4 (by decide)).trans (entry0_w2 m ρ c)
theorem exit0_b2 : W4 m ρ c (Proc.devRef .tc main_arg5) = (m ((c : Thread nD τ).loc main_arg5)) := (W4_of_ne m ρ c main_arg5 (by decide)).trans (entry0_b2 m ρ c)

/-! ## At the second region -/

/-- The first layer's output, as the second region finds it. -/
def hidden : (⟨S100000x16, .f32⟩ : BufTy).Contents (Elt Ideal) :=
  rectify16 (propagate16 (sources (m ((c : Thread nD τ).loc main_arg1))) (targets (m ((c : Thread nD τ).loc main_arg1)))
    (edgeWeight (sources (m ((c : Thread nD τ).loc main_arg1))) (targets (m ((c : Thread nD τ).loc main_arg1))))
    (product16 (m ((c : Thread nD τ).loc main_arg0)) (m ((c : Thread nD τ).loc main_arg2))) (shapeCast S1x16 (m ((c : Thread nD τ).loc main_arg3)) shapeCasts_S16_S1x16))

theorem entry1_hidden : W6 m ρ c (Proc.devRef .tc main_v47) = hidden m c := by
  rw [entry1_eq, middle_hidden, exit0_sources, exit0_targets, exit0_weight, exit0_product, exit0_b1]
  rfl
theorem entry1_sources : W6 m ρ c (Proc.devRef .tc main_v3) = sources (m ((c : Thread nD τ).loc main_arg1)) := by rw [entry1_eq, middle_kept_v3]; exact exit0_sources m ρ c
theorem entry1_targets : W6 m ρ c (Proc.devRef .tc main_v6) = targets (m ((c : Thread nD τ).loc main_arg1)) := by rw [entry1_eq, middle_kept_v6]; exact exit0_targets m ρ c
theorem entry1_weight : W6 m ρ c (Proc.devRef .tc main_v29) = edgeWeight (sources (m ((c : Thread nD τ).loc main_arg1))) (targets (m ((c : Thread nD τ).loc main_arg1))) := by
  rw [entry1_eq, middle_kept_v29]; exact exit0_weight m ρ c
theorem entry1_w2 : W6 m ρ c (Proc.devRef .tc main_arg4) = (m ((c : Thread nD τ).loc main_arg4)) := by rw [entry1_eq, middle_kept_arg4]; exact exit0_w2 m ρ c
theorem entry1_b2 : W6 m ρ c (Proc.devRef .tc main_arg5) = (m ((c : Thread nD τ).loc main_arg5)) := by rw [entry1_eq, middle_kept_arg5]; exact exit0_b2 m ρ c

/-- The second region leaves the product of the first layer's output and the second weight matrix. -/
theorem exit1_product : W7 m ρ c (Proc.devRef .tc main_v48) = product3 (hidden m c) (m ((c : Thread nD τ).loc main_arg4)) := by
  refine (W7_arr m ρ c 2).trans ?_
  funext i
  obtain ⟨p, q, rfl⟩ : ∃ (p : Fin 100000) (q : Fin 3), i = ix2 p q := ⟨i 0, i 1, eq_ix2 i⟩
  refine (RegionProduct.region1_entry (V6 m ρ) c (hidden m c) (m ((c : Thread nD τ).loc main_arg4)) (entry1_hidden m ρ c) (entry1_w2 m ρ c) p q).trans ?_
  exact (Cert.PlainDot.dotGeneral_apply _ rfl none .single _ _ p q).symm

theorem exit1_sources : W7 m ρ c (Proc.devRef .tc main_v3) = sources (m ((c : Thread nD τ).loc main_arg1)) := (W7_of_ne m ρ c main_v3 (by decide)).trans (entry1_sources m ρ c)
theorem exit1_targets : W7 m ρ c (Proc.devRef .tc main_v6) = targets (m ((c : Thread nD τ).loc main_arg1)) := (W7_of_ne m ρ c main_v6 (by decide)).trans (entry1_targets m ρ c)
theorem exit1_weight : W7 m ρ c (Proc.devRef .tc main_v29) = edgeWeight (sources (m ((c : Thread nD τ).loc main_arg1))) (targets (m ((c : Thread nD τ).loc main_arg1))) :=
  (W7_of_ne m ρ c main_v29 (by decide)).trans (entry1_weight m ρ c)
theorem exit1_b2 : W7 m ρ c (Proc.devRef .tc main_arg5) = (m ((c : Thread nD τ).loc main_arg5)) := (W7_of_ne m ρ c main_arg5 (by decide)).trans (entry1_b2 m ρ c)

/-! ## The result -/

/-- At the return the result buffer holds the network of the argument arrays, each bias a row by reshaping. -/
theorem result_eq : W8 m ρ c (Proc.devRef .tc main_v64)
    = network (m ((c : Thread nD τ).loc main_arg0)) (m ((c : Thread nD τ).loc main_arg1)) (m ((c : Thread nD τ).loc main_arg2)) (shapeCast S1x16 (m ((c : Thread nD τ).loc main_arg3)) shapeCasts_S16_S1x16)
        (m ((c : Thread nD τ).loc main_arg4)) (shapeCast S1x3 (m ((c : Thread nD τ).loc main_arg5)) shapeCasts_S3_S1x3) := by
  show after hostOps2 (W7 m ρ c) (Proc.devRef .tc main_v64) = _
  rw [tail_result, exit1_sources, exit1_targets, exit1_weight, exit1_product, exit1_b2]
  rfl

end Cert.KernelIdeal.KernelValue

end
-- ==== Proof.LibRowVector.lean ====
/-
  A vector laid out as a row. Reshaping a vector of n entries to a [1, n] array and broadcasting it to a [1, n] array
  along the second axis give the same array: entry (0, j) of either is entry j of the vector.
-/
import Idealize.ShloMosaic.Lib.Pipeline.Value
import Idealize.ShloMosaic.Lib.ValueIdx

noncomputable section

namespace Cert.RowVector

open Idealize.ShloMosaic

variable {α : Type} {n : ℕ}

/-- The reshape of a vector to a row, read at an entry: the vector at the entry's column. -/
theorem reshape_apply (x : (⟨1, ![n]⟩ : Shape).Idx → α) (h : (⟨1, ![n]⟩ : Shape).ShapeCasts ⟨2, ![1, n]⟩)
    (j : (⟨2, ![1, n]⟩ : Shape).Idx) : shapeCast ⟨2, ![1, n]⟩ x h j = x (fun a => j a.succ) :=
  shapeCast_addUnit_apply ![n] x h j

/-- The broadcast of a vector to a row along the second axis, read at an entry: the vector at the entry's column. -/
theorem broadcast_apply (x : (⟨1, ![n]⟩ : Shape).Idx → α) (h : (⟨1, ![n]⟩ : Shape).BroadcastsInDim ⟨2, ![1, n]⟩ ![1])
    (j : (⟨2, ![1, n]⟩ : Shape).Idx) : broadcastInDim ⟨2, ![1, n]⟩ ![1] h x j = x (fun a => j a.succ) := by
  refine broadcastInDim_apply ![1] h x j (fun a => j a.succ) (fun a => ?_)
  match a with
  | ⟨0, _⟩ =>
    show (j 1).val = if n = 1 then 0 else (j 1).val
    by_cases h1 : n = 1
    · rw [if_pos h1]
      have hlt : (j 1).val < n := (j 1).isLt
      omega
    · rw [if_neg h1]

/-- The two layouts are one array. -/
theorem reshape_eq_broadcast (x : (⟨1, ![n]⟩ : Shape).Idx → α) (h : (⟨1, ![n]⟩ : Shape).ShapeCasts ⟨2, ![1, n]⟩)
    (hb : (⟨1, ![n]⟩ : Shape).BroadcastsInDim ⟨2, ![1, n]⟩ ![1]) :
    shapeCast ⟨2, ![1, n]⟩ x h = broadcastInDim ⟨2, ![1, n]⟩ ![1] hb x :=
  funext fun j => (reshape_apply x h j).trans (broadcast_apply x hb j).symm

end Cert.RowVector

end
-- ==== Proof.lean ====
/-
  A two-layer graph convolution on 100 000 nodes and 6 400 000 edges: the kernel program against its reference.

  Both programs build the same edge lists (the given edges followed by one self loop per node), count the edges
  arriving at each node, weigh every edge by the inverse square roots of its endpoints' counts (zero where a count is
  not positive), and run two layers of: multiply the node features by a weight matrix, fetch each edge's source row,
  scale it by the edge's weight, sum the rows at the edge's target, add a bias row.  The first layer's result is
  rectified.  They differ in three places.  The kernel program computes each matrix product on chip, ten blocks of
  10 000 rows at a time, from operands rounded to a shorter float format; the reference computes it by one host
  contraction.  Over the extended reals the rounding is the identity, each block's entry is the sum over the
  contracted axis of products of entries, and the ten blocks tile the rows, so both are the same matrix.  The kernel
  program lays a bias vector out as a row by a reshape, the reference by a broadcast along the second axis: the same
  row.  And the reference computes the edge weights once per layer where the kernel program computes them once: the
  same function of the same edge list.  No law of arithmetic beyond these identities is used, so the inputs'
  finiteness is never needed.

  The three frames: the kernel program's and its idealization's are the generated frame certificates; the
  reference's is its run with the result dropped.  The idealization rewrote nothing, so it is sanctioned trivially.
-/
import proofs.«102516_j13219909337481_2_alg».proof.Defs
import proofs.«102516_j13219909337481_2_alg».proof.Proof.Gen.Kernel
import proofs.«102516_j13219909337481_2_alg».proof.Proof.Gen.Kernel.Skeleton
import proofs.«102516_j13219909337481_2_alg».proof.Proof.Gen.Kernel.Launch
import proofs.«102516_j13219909337481_2_alg».proof.Proof.Gen.Kernel.Points
import proofs.«102516_j13219909337481_2_alg».proof.Proof.Gen.Kernel.Frame
import proofs.«102516_j13219909337481_2_alg».proof.Proof.Gen.KernelIdeal
import proofs.«102516_j13219909337481_2_alg».proof.Proof.Gen.KernelIdeal.Skeleton
import proofs.«102516_j13219909337481_2_alg».proof.Proof.Gen.KernelIdeal.Launch
import proofs.«102516_j13219909337481_2_alg».proof.Proof.Gen.KernelIdeal.Points
import proofs.«102516_j13219909337481_2_alg».proof.Proof.Gen.KernelIdeal.Frame
import proofs.«102516_j13219909337481_2_alg».proof.Proof.Gen.ReferenceIdeal
import proofs.«102516_j13219909337481_2_alg».proof.Proof.Gen.Pre_finite_inputs
import proofs.«102516_j13219909337481_2_alg».proof.Proof.RefRun
import proofs.«102516_j13219909337481_2_alg».proof.Proof.RefValue
import proofs.«102516_j13219909337481_2_alg».proof.Proof.KernelRun
import proofs.«102516_j13219909337481_2_alg».proof.Proof.KernelValue
import proofs.«102516_j13219909337481_2_alg».proof.Proof.LibRowVector
import Idealize.ShloMosaic.Adequacy
import Idealize.ShloMosaic.Init

set_option maxRecDepth 16384

noncomputable section

namespace Cert.Proof

open Idealize.ShloMosaic Idealize.ShloMosaic.TcCoe Idealize.SL.Sem

/-- What both programs end holding on core `c`: the network of the argument arrays as the kernel program is launched
    with them, each bias vector a row. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v64) :=
  Cert.KernelIdeal.Layers.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (shapeCast Cert.KernelIdeal.S1x16 (m ((c.tc : Thread Cert.KernelIdeal.nD Cert.KernelIdeal.τ).loc Cert.KernelIdeal.main_arg3)) Cert.KernelIdeal.Gen.shapeCasts_S16_S1x16)
    (m ((c.tc : Thread Cert.KernelIdeal.nD Cert.KernelIdeal.τ).loc Cert.KernelIdeal.main_arg4)) (shapeCast Cert.KernelIdeal.S1x3 (m ((c.tc : Thread Cert.KernelIdeal.nD Cert.KernelIdeal.τ).loc Cert.KernelIdeal.main_arg5)) Cert.KernelIdeal.Gen.shapeCasts_S3_S1x3)

/-- A bias vector as a row: the reference's broadcast along the second axis is the kernel program's reshape. -/
theorem bias_row16 (b : (⟨Cert.KernelIdeal.S16, .f32⟩ : BufTy).Contents (Elt Ideal)) :
    broadcastInDim Cert.ReferenceIdeal.S1x16 ![1] Cert.ReferenceIdeal.Gen.bcast_S16_S1x16_1 b = shapeCast Cert.KernelIdeal.S1x16 b Cert.KernelIdeal.Gen.shapeCasts_S16_S1x16 :=
  (Cert.RowVector.reshape_eq_broadcast (n := 16) b Cert.KernelIdeal.Gen.shapeCasts_S16_S1x16 Cert.ReferenceIdeal.Gen.bcast_S16_S1x16_1).symm
theorem bias_row3 (b : (⟨Cert.KernelIdeal.S3, .f32⟩ : BufTy).Contents (Elt Ideal)) :
    broadcastInDim Cert.ReferenceIdeal.S1x3 ![1] Cert.ReferenceIdeal.Gen.bcast_S3_S1x3_1 b = shapeCast Cert.KernelIdeal.S1x3 b Cert.KernelIdeal.Gen.shapeCasts_S3_S1x3 :=
  (Cert.RowVector.reshape_eq_broadcast (n := 3) b Cert.KernelIdeal.Gen.shapeCasts_S3_S1x3 Cert.ReferenceIdeal.Gen.bcast_S3_S1x3_1).symm

theorem frame_kernel : Cert.frame_Kernel := fun m ρ _ => Cert.Kernel.Gen.frame m ρ
theorem frame_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.ValueP.run (F := Ideal) m ρ)

/-- Run from memories that agree on the arguments, both programs end with the network of those arguments. -/
theorem algebraic : Cert.algebraic_KernelIdeal_ReferenceIdeal := by
  intro m ρ m' ρ' _ hagree
  refine ⟨result m, ?_, ?_⟩
  · exact (θ_run Cert.KernelIdeal.defs _ _).mono (fun _ h c => ⟨(h c).1.trans (Cert.KernelIdeal.KernelValue.result_eq m ρ c), (h c).2⟩)
      (Cert.KernelIdeal.RunValue.run (F := Ideal) m ρ)
  · refine (θ_run Cert.ReferenceIdeal.defs _ _).mono (fun _ h c => ⟨(h c).1.trans ?_, (h c).2⟩) (Cert.ReferenceIdeal.ValueP.run (F := Ideal) m' ρ')
    obtain ⟨h0, h1, h2, h3, h4, h5⟩ := hagree c
    rw [Cert.ReferenceIdeal.RefValue.result_eq, h0, h1, h2, h3, h4, h5, bias_row16, bias_row3]
    rfl

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
